-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x3 .f32) (main_arg11 : FVec F S3 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x3 .f32 := Host.absf main_arg10
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x1 .f32) (main_arg1 : IVec S2x3200000 32) (main_arg2 : FVec F S1x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x1 : Shape := ⟨2, ![10000, 1]⟩
abbrev S10000x64 : Shape := ⟨2, ![10000, 64]⟩
abbrev S3300000x64 : Shape := ⟨2, ![3300000, 64]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 109
  | .vmem => 26
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x1, .f32⟩
  | .hbm, ⟨63, _⟩ => ⟨S3300000x64, .f32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x64, .f32⟩
  | .hbm, ⟨80, _⟩ => ⟨S3300000x1, .f32⟩
  | .hbm, ⟨81, _⟩ => ⟨S3300000x64, .f32⟩
  | .hbm, ⟨82, _⟩ => ⟨S3300000x64, .f32⟩
  | .hbm, ⟨83, _⟩ => ⟨S_, .f32⟩
  | .hbm, ⟨84, _⟩ => ⟨S100000x64, .f32⟩
  | .hbm, ⟨85, _⟩ => ⟨S3300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x64, .f32⟩
  | .hbm, ⟨98, _⟩ => ⟨S3300000x1, .f32⟩
  | .hbm, ⟨99, _⟩ => ⟨S3300000x64, .f32⟩
  | .hbm, ⟨100, _⟩ => ⟨S3300000x64, .f32⟩
  | .hbm, ⟨101, _⟩ => ⟨S_, .f32⟩
  | .hbm, ⟨102, _⟩ => ⟨S100000x64, .f32⟩
  | .hbm, ⟨103, _⟩ => ⟨S3300000x1, .i32⟩
  | .hbm, ⟨104, _⟩ => ⟨S100000x64, .f32⟩
  | .hbm, ⟨105, _⟩ => ⟨S1x64, .f32⟩
  | .hbm, ⟨106, _⟩ => ⟨S1x64, .f32⟩
  | .hbm, ⟨107, _⟩ => ⟨S1x3, .f32⟩
  | .hbm, ⟨108, _⟩ => ⟨S100000x3, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x3, .f32⟩
  | .local _ .vmem, ⟨23, _⟩ => ⟨S1x3, .f32⟩
  | .local _ .vmem, ⟨24, _⟩ => ⟨S10000x3, .f32⟩
  | .local _ .vmem, ⟨25, _⟩ => ⟨S10000x3, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x1_S10000x1_0_0 : ∀ a, (![0, 0] : Fin 2 → Nat) a + S10000x1.size a ≤ S10000x1.size a
  h_S10000x1 : 0 < S10000x1.numel
  inb_S1x64_S1x64_0_0 : ∀ a, (![0, 0] : Fin 2 → Nat) a + S1x64.size a ≤ S1x64.size a
  h_S1x64 : 0 < S1x64.numel
  broadcasts_S10000x1_S10000x64 : S10000x1.Broadcasts S10000x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  shapeCasts_S1x64_S1x64 : S1x64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S3_S1x3 : S3.ShapeCasts S1x3
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x3.size a ≤ S64x3.size a
  hwx3_4 : ∀ i : grid3.Coords, EltTy.bits .f32 = 32 ∨ (Rect.block (s := S64x3) S64x3.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x3.size a ≤ S1x3.size a
  hwx3_5 : ∀ i : grid3.Coords, EltTy.bits .f32 = 32 ∨ (Rect.block (s := S1x3) S1x3.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x3.size a ≤ S100000x3.size a
  hwx3_6 : ∀ i : grid3.Coords, EltTy.bits .f32 = 32 ∨ (Rect.block (s := S100000x3) S10000x3.size (cc3_transform_6 i) (hinb3_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S10000x3.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S100000x64 : Shape := ⟨2, ![100000, 64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S100000x3 : Shape := ⟨2, ![100000, 3]⟩
abbrev S1x3 : Shape := ⟨2, ![1, 3]⟩

abbrev nBuf : Space → Nat
  | .hbm => 212
  | .vmem => 0
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x3, .f32⟩
  | 11 => ⟨S3, .f32⟩
  | 12 => ⟨S100000x64, .f32⟩
  | 13 => ⟨S1x3200000, .i32⟩
  | 14 => ⟨S3200000, .i32⟩
  | 15 => ⟨S1x3200000, .i32⟩
  | 16 => ⟨S3200000, .i32⟩
  | 17 => ⟨S100000, .i32⟩
  | 18 => ⟨S3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x1, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S1x3200000, .i32⟩
  | 77 => ⟨S3200000, .i32⟩
  | 78 => ⟨S1x3200000, .i32⟩
  | 79 => ⟨S3200000, .i32⟩
  | 80 => ⟨S100000, .i32⟩
  | 81 => ⟨S3300000, .i32⟩
  | 82 => ⟨S3300000, .i32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x1, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | 11 => ⟨S1x3200000, .i32⟩
  | 12 => ⟨S3200000, .i32⟩
  | 13 => ⟨S1x3200000, .i32⟩
  | 14 => ⟨S3200000, .i32⟩
  | 15 => ⟨S100000, .i32⟩
  | 16 => ⟨S3300000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x3, .f32⟩
  | 81 => ⟨S1x3, .f32⟩
  | 82 => ⟨S100000x3, .f32⟩
  | 83 => ⟨S100000x3, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call3_cst : Ref sig .tc := ⟨.hbm, 135, rfl⟩
abbrev main_call3_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_20 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_23 : Ref sig .tc := ⟨.hbm, 156, rfl⟩
abbrev main_call4_v0 : Ref sig .tc := ⟨.hbm, 157, rfl⟩
abbrev main_call4_v1 : Ref sig .tc := ⟨.hbm, 158, rfl⟩
abbrev main_v111 : Ref sig .tc := ⟨.hbm, 159, rfl⟩
abbrev main_c_24 : Ref sig .tc := ⟨.hbm, 160, rfl⟩
abbrev main_v112 : Ref sig .tc := ⟨.hbm, 161, rfl⟩
abbrev main_v113 : Ref sig .tc := ⟨.hbm, 162, rfl⟩
abbrev main_c_25 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_26 : Ref sig .tc := ⟨.hbm, 169, rfl⟩
abbrev main_v119 : Ref sig .tc := ⟨.hbm, 170, rfl⟩
abbrev main_v120 : Ref sig .tc := ⟨.hbm, 171, rfl⟩
abbrev main_c_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_28 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_30 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call5_cst : Ref sig .tc := ⟨.hbm, 198, rfl⟩
abbrev main_call5_v0 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_call6_cst : Ref sig .tc := ⟨.hbm, 205, rfl⟩
abbrev main_call6_v0 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x1_S1x64_S100000x64_1_0_0_1_n_n_wf : DotDims.WF S100000x1 S1x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The kernel program's run with its result named.

  @main is ten segments: stretches of host operations and four TensorCore regions. The buffer contents at each
  boundary are a fold from the launch memory (a stretch applies its operations; a region replaces its arrays by
  what its write-backs leave). Every weakly fair execution terminates, nothing faulting, and in the final state
  every unscoped buffer holds the last boundary's contents: in particular the result buffer holds the last fold's
  value at it, and every argument what it held at launch. This is the frame's own argument, read at one more buffer.
-/
import proofs.«111814_j16303695855961_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Run

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibDenseStage.lean ====
/-
  General lemmas: a dense stage (bias row, rectifier, product by a weight) over the extended reals, read at an index.

  Every dense stage of the network has one shape: a matrix x of shape [a, k] is shifted by a bias row b of shape
  [1, k] (the row laid along every row of x), rectified against zero, and multiplied by a weight w of shape [k, n].
  Entry (p, j) of the result is the sum over q of max (x (p, q) + b (0, q)) 0 · w (q, j): it reads row p of x only.
  The first stage is the product of a one-column matrix by a one-row matrix: entry (p, j) is x (p, 0) · w (0, j).

  The host states such a stage as a dot_general of a maximum against a broadcast zero; the matrix unit states it as
  a product into a zero accumulator of the same maximum after a change of float format, which is the identity on
  the extended reals. Both are read here at an index as the same sum. Nothing here mentions a program: the extents
  are variables and a dimension record is any record with the axis lists of a plain matrix product.
-/
import Idealize.ShloMosaic.Lib.ValueLayout
import Idealize.ShloMosaic.Lib.ValueIdx
import Idealize.ShloMosaic.Lib.IdealHost
import Idealize.ShloMosaic.Lib.Pipeline.Value
import Idealize.ShloMosaic.PureOps.Ideal.Laws
import proofs.«111814_j16303695855961_1_alg».proof.Proof.LibAffine
import proofs.«111814_j16303695855961_1_alg».proof.Proof.LibPlainDot
import proofs.«111814_j16303695855961_1_alg».proof.Proof.LibColumnRow

noncomputable section

namespace Cert.LibDenseStage

open Idealize.ShloMosaic Idealize.ShloMosaic.ValueIdx

variable {a k n : ℕ}

/-- Entry (p, q) of the rectified shifted matrix: max (x (p, q) + b (0, q)) 0, the zero kept as its float word. -/
def rectAt (x : FVec Ideal ⟨2, ![a, k]⟩ .f32) (b : FVec Ideal ⟨2, ![1, k]⟩ .f32) (p : Fin a) (q : Fin k) : Ideal .f32 :=
  max (x (ix2 p q) + b (ix2 (0 : Fin 1) q)) (Ideal.ofBits .f32 0x00000000#32)

/-- Entry (p, j) of relu (x + b) · w. -/
def layerAt (x : FVec Ideal ⟨2, ![a, k]⟩ .f32) (b : FVec Ideal ⟨2, ![1, k]⟩ .f32) (w : FVec Ideal ⟨2, ![k, n]⟩ .f32)
    (p : Fin a) (j : Fin n) : Ideal .f32 :=
  ∑ q : Fin k, rectAt x b p q * w (ix2 q j)

/-- relu (x + b) · w as an [a, n] array. -/
def layer (x : FVec Ideal ⟨2, ![a, k]⟩ .f32) (b : FVec Ideal ⟨2, ![1, k]⟩ .f32) (w : FVec Ideal ⟨2, ![k, n]⟩ .f32) :
    FVec Ideal ⟨2, ![a, n]⟩ .f32 :=
  fun i => layerAt x b w (i 0) (i 1)

theorem layer_ix2 (x : FVec Ideal ⟨2, ![a, k]⟩ .f32) (b : FVec Ideal ⟨2, ![1, k]⟩ .f32) (w : FVec Ideal ⟨2, ![k, n]⟩ .f32)
    (p : Fin a) (j : Fin n) : layer x b w (ix2 p j) = layerAt x b w p j := rfl

/-- Entry (p, j) reads row p of the matrix only: matrices that agree on that row, with the same bias row and
    weight, give the same entry. -/
theorem layerAt_congr {a' : ℕ} (X : FVec Ideal ⟨2, ![a, k]⟩ .f32) (x : FVec Ideal ⟨2, ![a', k]⟩ .f32)
    (B b : FVec Ideal ⟨2, ![1, k]⟩ .f32) (W w : FVec Ideal ⟨2, ![k, n]⟩ .f32) (p : Fin a') (p' : Fin a) (j : Fin n)
    (hx : ∀ q : Fin k, x (ix2 p q) = X (ix2 p' q)) (hb : ∀ q : Fin k, b (ix2 (0 : Fin 1) q) = B (ix2 (0 : Fin 1) q))
    (hw : ∀ q : Fin k, w (ix2 q j) = W (ix2 q j)) :
    layerAt x b w p j = layerAt X B W p' j := by
  unfold layerAt rectAt
  exact Finset.sum_congr rfl fun q _ => by rw [hx q, hb q, hw q]

/-- The host's stage: the product, by a plain dimension record, of max (h + the bias row laid along the rows)
    (the zero scalar spread everywhere) with the weight, at (p, j). -/
theorem hostLayer_ix2 (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (hd : (⟨2, ![1, k]⟩ : Shape).BroadcastsInDim ⟨2, ![a, k]⟩ ![0, 1])
    (hz : (⟨0, ![]⟩ : Shape).BroadcastsInDim ⟨2, ![a, k]⟩ ![]) (prec : Option ContractPrecision)
    (h : FVec Ideal ⟨2, ![a, k]⟩ .f32) (b : FVec Ideal ⟨2, ![1, k]⟩ .f32) (w : FVec Ideal ⟨2, ![k, n]⟩ .f32)
    (p : Fin a) (j : Fin n) :
    Host.dotGeneral D prec
        (maximumf (addf h (broadcastInDim ⟨2, ![a, k]⟩ ![0, 1] hd b))
          (broadcastInDim ⟨2, ![a, k]⟩ ![] hz (constant (F := Ideal) ⟨0, ![]⟩ .f32 0x00000000#32))) w (ix2 p j)
      = layerAt h b w p j := by
  rw [Cert.LibAffine.hostDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn)]
  refine Finset.sum_congr rfl fun q _ => ?_
  rw [maximumf_apply, addf_apply, Cert.LibAffine.broadcastInDim_1n_an_apply, broadcastInDim_scalar_apply, constant_apply]
  rfl

/-- The host's stage as a whole array. -/
theorem hostLayer_eq (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (hd : (⟨2, ![1, k]⟩ : Shape).BroadcastsInDim ⟨2, ![a, k]⟩ ![0, 1])
    (hz : (⟨0, ![]⟩ : Shape).BroadcastsInDim ⟨2, ![a, k]⟩ ![]) (prec : Option ContractPrecision)
    (h : FVec Ideal ⟨2, ![a, k]⟩ .f32) (b : FVec Ideal ⟨2, ![1, k]⟩ .f32) (w : FVec Ideal ⟨2, ![k, n]⟩ .f32) :
    Host.dotGeneral D prec
        (maximumf (addf h (broadcastInDim ⟨2, ![a, k]⟩ ![0, 1] hd b))
          (broadcastInDim ⟨2, ![a, k]⟩ ![] hz (constant (F := Ideal) ⟨0, ![]⟩ .f32 0x00000000#32))) w
      = layer h b w := by
  funext i
  obtain ⟨p, j, rfl⟩ : ∃ (p : Fin a) (j : Fin n), i = ix2 p j := ⟨i 0, i 1, eq_ix2 i⟩
  rw [hostLayer_ix2 D hlc hlb hln hrc hrb hrn hd hz prec h b w p j, layer_ix2]

/-- The matrix unit's stage: the product into a zero accumulator of max (h + the bias row spread over the rows)
    (zero spread everywhere), narrowed to the matrix unit's input format, with the narrowed weight, at (p, j). On
    the extended reals narrowing is the identity. -/
theorem coreLayer_ix2 (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (hbr : (⟨2, ![1, k]⟩ : Shape).Broadcasts ⟨2, ![a, k]⟩) (hbits : FTy.bf16.bits < FTy.f32.bits)
    (prec : Option ContractPrecision)
    (h : FVec Ideal ⟨2, ![a, k]⟩ .f32) (b : FVec Ideal ⟨2, ![1, k]⟩ .f32) (w : FVec Ideal ⟨2, ![k, n]⟩ .f32)
    (p : Fin a) (j : Fin n) :
    FloatOps.matmul D prec
        (truncf .bf16 (maximumf (addf h (broadcastTo ⟨2, ![a, k]⟩ b hbr))
          (broadcast ⟨2, ![a, k]⟩ (Scalar.ofBits (F := Ideal) .f32 0x00000000#32))) hbits)
        (truncf .bf16 w hbits) (constant ⟨2, ![a, n]⟩ .f32 0x00000000#32) (ix2 p j)
      = layerAt h b w p j := by
  rw [Cert.LibAffine.coreDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn)]
  refine Finset.sum_congr rfl fun q _ => ?_
  rw [truncf_apply, truncf_apply, maximumf_apply, addf_apply, broadcastTo_1b_ab_apply, broadcast_apply]
  rfl

/-- The matrix unit's stage as a whole array. -/
theorem coreLayer_eq (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (hbr : (⟨2, ![1, k]⟩ : Shape).Broadcasts ⟨2, ![a, k]⟩) (hbits : FTy.bf16.bits < FTy.f32.bits)
    (prec : Option ContractPrecision)
    (h : FVec Ideal ⟨2, ![a, k]⟩ .f32) (b : FVec Ideal ⟨2, ![1, k]⟩ .f32) (w : FVec Ideal ⟨2, ![k, n]⟩ .f32) :
    FloatOps.matmul D prec
        (truncf .bf16 (maximumf (addf h (broadcastTo ⟨2, ![a, k]⟩ b hbr))
          (broadcast ⟨2, ![a, k]⟩ (Scalar.ofBits (F := Ideal) .f32 0x00000000#32))) hbits)
        (truncf .bf16 w hbits) (constant ⟨2, ![a, n]⟩ .f32 0x00000000#32)
      = layer h b w := by
  funext i
  obtain ⟨p, j, rfl⟩ : ∃ (p : Fin a) (j : Fin n), i = ix2 p j := ⟨i 0, i 1, eq_ix2 i⟩
  rw [coreLayer_ix2 D hlc hlb hln hrc hrb hrn hbr hbits prec h b w p j, layer_ix2]

/-! ## The first stage: a one-column matrix times a one-row matrix -/

/-- The host's product of an [a, 1] by a [1, n] array is, at (p, j), the one product x (p, 0) · w (0, j). -/
theorem hostOuter_ix2 (D : DotDims ⟨2, ![a, 1]⟩ ⟨2, ![1, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (prec : Option ContractPrecision)
    (x : FVec Ideal ⟨2, ![a, 1]⟩ .f32) (w : FVec Ideal ⟨2, ![1, n]⟩ .f32) (p : Fin a) (j : Fin n) :
    Host.dotGeneral D prec x w (ix2 p j) = x (ix2 p (0 : Fin 1)) * w (ix2 (0 : Fin 1) j) := by
  rw [Cert.LibAffine.hostDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn)]
  exact Fin.sum_univ_one _

/-- The vector unit's form: the column spread over the columns times the row spread over the rows. -/
theorem coreOuter_ix2 (hc : (⟨2, ![a, 1]⟩ : Shape).Broadcasts ⟨2, ![a, n]⟩) (hr : (⟨2, ![1, n]⟩ : Shape).Broadcasts ⟨2, ![a, n]⟩)
    (x : FVec Ideal ⟨2, ![a, 1]⟩ .f32) (w : FVec Ideal ⟨2, ![1, n]⟩ .f32) (p : Fin a) (j : Fin n) :
    mulf (broadcastTo ⟨2, ![a, n]⟩ x hc) (broadcastTo ⟨2, ![a, n]⟩ w hr) (ix2 p j)
      = x (ix2 p (0 : Fin 1)) * w (ix2 (0 : Fin 1) j) := by
  rw [mulf_apply, Cert.LibColumnRow.broadcastTo_a1_ab_apply, broadcastTo_1b_ab_apply]

/-! ## The last stage's bias row -/

/-- A stage plus a bias row spread over the rows, on the host and on the vector unit, at (p, j). -/
theorem hostBias_ix2 (hd : (⟨2, ![1, n]⟩ : Shape).BroadcastsInDim ⟨2, ![a, n]⟩ ![0, 1])
    (y : FVec Ideal ⟨2, ![a, n]⟩ .f32) (b : FVec Ideal ⟨2, ![1, n]⟩ .f32) (p : Fin a) (j : Fin n) :
    addf y (broadcastInDim ⟨2, ![a, n]⟩ ![0, 1] hd b) (ix2 p j) = y (ix2 p j) + b (ix2 (0 : Fin 1) j) := by
  rw [addf_apply, Cert.LibAffine.broadcastInDim_1n_an_apply]

theorem coreBias_ix2 (hb : (⟨2, ![1, n]⟩ : Shape).Broadcasts ⟨2, ![a, n]⟩)
    (y : FVec Ideal ⟨2, ![a, n]⟩ .f32) (b : FVec Ideal ⟨2, ![1, n]⟩ .f32) (p : Fin a) (j : Fin n) :
    addf y (broadcastTo ⟨2, ![a, n]⟩ b hb) (ix2 p j) = y (ix2 p j) + b (ix2 (0 : Fin 1) j) := by
  rw [addf_apply, broadcastTo_1b_ab_apply]

end Cert.LibDenseStage

end
-- ==== Proof.Net.lean ====
/-
  The network both programs compute, as one function of the argument arrays.

  A graph of 100000 nodes is given by 3200000 directed edges (a row of sources and a row of targets); every node
  also gets a loop to itself, so there are 3300000 edges in all. The degree of a node is the number of edges that
  end there, a node's scale is the inverse root of its degree where the degree is positive (zero elsewhere), and an
  edge's weight is the product of the scales of its two ends. One aggregation of a [100000, 64] table h gathers
  the row of h at every edge's source, multiplies it by the edge's weight, and adds it into the row of the edge's
  target, from zero. The network is: the outer product x · W1; then three times an aggregation followed by a dense
  stage (bias row, rectifier, product by the next weight); the last dense stage is followed by a second one and a
  final bias row.

  The graph side is stated with the host operations themselves (a gather and a scatter-add read nothing at a fixed
  index); the dense side is stated twice: as the host's operations (hostOuter, hostLayer, hostTail) and index by
  index (outer, the general dense stage, tail), and the two are equal.
-/
import proofs.«111814_j16303695855961_1_alg».proof.ReferenceIdeal
import proofs.«111814_j16303695855961_1_alg».proof.Proof.Gen.ReferenceIdeal
import proofs.«111814_j16303695855961_1_alg».proof.Proof.LibDenseStage
import Idealize.ShloMosaic.PureOps.Ideal

noncomputable section

namespace Cert.Net

open Idealize.ShloMosaic Idealize.ShloMosaic.ValueIdx Cert.ReferenceIdeal Cert.ReferenceIdeal.Gen

/-! ## The graph side -/

/-- The edges' sources: row 0 of the edge list, then every node once (the loops). -/
def srcs (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets: row 1 of the edge list, then every node once. -/
def dsts (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A column of start indices for a gather: a negative index counts from the end. -/
def wrap (i : IVec S3300000 32) : IVec S3300000x1 32 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- A node's degree from the targets: the number of edges that end there, as a scatter-add of ones into zeros. -/
def degOf (d : IVec S3300000 32) : FVec Ideal S100000 .f32 :=
  Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 d) (broadcastInDim S3300000 ![] bcast_S_S3300000 (constant (F := Ideal) S_ .f32 0x3F800000#32))

/-- A node's scale from the targets: the inverse root of its degree where that is positive, zero elsewhere. -/
def scaleOf (d : IVec S3300000 32) : FVec Ideal S100000 .f32 :=
  select
    (cmpf (F := Ideal) .ogt (degOf d) (broadcastInDim S100000 ![] bcast_S_S100000 (constant (F := Ideal) S_ .f32 0x00000000#32)))
    (Host.rsqrt (F := Ideal) (degOf d))
    (broadcastInDim S100000 ![] bcast_S_S100000 (id (constant (F := Ideal) S_ .f32 0x00000000#32)))

/-- An edge's weight from the sources, the targets and the nodes' scales: the product of its two ends' scales. -/
def weightOf (s d : IVec S3300000 32) (v : FVec Ideal S100000 .f32) :
    FVec Ideal S3300000 .f32 :=
  mulf (Host.gather gather_S100000_S3300000x1_S3300000_n_0_n_n_0_1_1 v (wrap s))
    (Host.gather gather_S100000_S3300000x1_S3300000_n_0_n_n_0_1_1 v (wrap d))

/-- One aggregation from the sources, the targets and the edges' weights: the rows of h at the sources, each times
    its edge's weight, added into the rows of the targets from zero. -/
def aggOf (s d : IVec S3300000 32) (nr : FVec Ideal S3300000 .f32)
    (h : FVec Ideal S100000x64 .f32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 d)
    (mulf (Host.gather gather_S100000x64_S3300000x1_S3300000x64_1_0_n_n_0_1_164 h (wrap s))
      (broadcastInDim S3300000x64 ![0, 1] bcast_S3300000x1_S3300000x64_0_1 (broadcastInDim S3300000x1 ![0] bcast_S3300000_S3300000x1_0 nr)))

/-- The edges' weights of an edge list. -/
def norm (e : IVec S2x3200000 32) : FVec Ideal S3300000 .f32 :=
  weightOf (srcs e) (dsts e) (scaleOf (dsts e))

/-- One aggregation over an edge list. -/
def agg (e : IVec S2x3200000 32) (h : FVec Ideal S100000x64 .f32) :
    FVec Ideal S100000x64 .f32 :=
  aggOf (srcs e) (dsts e) (norm e) h

/-! ## The dense side, as the host states it -/

/-- A bias vector as a one-row array. -/
def row (b : FVec Ideal S64 .f32) : FVec Ideal S1x64 .f32 :=
  broadcastInDim S1x64 ![1] bcast_S64_S1x64_1 b
def row3 (b : FVec Ideal S3 .f32) : FVec Ideal S1x3 .f32 :=
  broadcastInDim S1x3 ![1] bcast_S3_S1x3_1 b

def hostOuter (x : FVec Ideal S100000x1 .f32) (w : FVec Ideal S1x64 .f32) :
    FVec Ideal S100000x64 .f32 :=
  Host.dotGeneral (F := Ideal) dot_S100000x1_S1x64_S100000x64_1_0_0_1_n_n none x w

def hostLayer (A : FVec Ideal S100000x64 .f32) (br : FVec Ideal S1x64 .f32)
    (W : FVec Ideal S64x64 .f32) : FVec Ideal S100000x64 .f32 :=
  Host.dotGeneral (F := Ideal) dot_S100000x64_S64x64_S100000x64_1_0_0_1_n_n none
    (maximumf (addf A (broadcastInDim S100000x64 ![0, 1] bcast_S1x64_S100000x64_0_1 br))
      (broadcastInDim S100000x64 ![] bcast_S_S100000x64 (constant (F := Ideal) S_ .f32 0x00000000#32))) W

def hostTail (A : FVec Ideal S100000x64 .f32) (br3 : FVec Ideal S1x64 .f32)
    (Wp1 : FVec Ideal S64x64 .f32) (brp1 : FVec Ideal S1x64 .f32)
    (Wp2 : FVec Ideal S64x3 .f32) (brp2 : FVec Ideal S1x3 .f32) :
    FVec Ideal S100000x3 .f32 :=
  addf (Host.dotGeneral (F := Ideal) dot_S100000x64_S64x3_S100000x3_1_0_0_1_n_n none
      (maximumf (addf (hostLayer A br3 Wp1) (broadcastInDim S100000x64 ![0, 1] bcast_S1x64_S100000x64_0_1 brp1))
        (broadcastInDim S100000x64 ![] bcast_S_S100000x64 (constant (F := Ideal) S_ .f32 0x00000000#32))) Wp2)
    (broadcastInDim S100000x3 ![0, 1] bcast_S1x3_S100000x3_0_1 brp2)

/-! ## The dense side, index by index -/

/-- The outer product of the one-column x by the one-row w. -/
def outer (x : FVec Ideal S100000x1 .f32) (w : FVec Ideal S1x64 .f32) :
    FVec Ideal S100000x64 .f32 :=
  fun i => x (ix2 (i 0) (0 : Fin 1)) * w (ix2 (0 : Fin 1) (i 1))

/-- The last two dense stages and the final bias row. -/
def tail (A : FVec Ideal S100000x64 .f32) (br3 : FVec Ideal S1x64 .f32)
    (Wp1 : FVec Ideal S64x64 .f32) (brp1 : FVec Ideal S1x64 .f32)
    (Wp2 : FVec Ideal S64x3 .f32) (brp2 : FVec Ideal S1x3 .f32) :
    FVec Ideal S100000x3 .f32 :=
  fun i => Cert.LibDenseStage.layerAt (Cert.LibDenseStage.layer A br3 Wp1) brp1 Wp2 (i 0) (i 1) + brp2 (ix2 (0 : Fin 1) (i 1))

theorem hostOuter_eq (x : FVec Ideal S100000x1 .f32) (w : FVec Ideal S1x64 .f32) :
    hostOuter x w = outer x w := by
  funext i
  obtain ⟨p, j, rfl⟩ : ∃ (p : Fin 100000) (j : Fin 64), i = ix2 p j := ⟨i 0, i 1, eq_ix2 i⟩
  exact Cert.LibDenseStage.hostOuter_ix2 dot_S100000x1_S1x64_S100000x64_1_0_0_1_n_n rfl rfl rfl rfl rfl rfl none x w p j

theorem hostLayer_eq (A : FVec Ideal S100000x64 .f32) (br : FVec Ideal S1x64 .f32)
    (W : FVec Ideal S64x64 .f32) : hostLayer A br W = Cert.LibDenseStage.layer A br W :=
  Cert.LibDenseStage.hostLayer_eq dot_S100000x64_S64x64_S100000x64_1_0_0_1_n_n rfl rfl rfl rfl rfl rfl
    bcast_S1x64_S100000x64_0_1 bcast_S_S100000x64 none A br W

theorem hostTail_eq (A : FVec Ideal S100000x64 .f32) (br3 : FVec Ideal S1x64 .f32)
    (Wp1 : FVec Ideal S64x64 .f32) (brp1 : FVec Ideal S1x64 .f32)
    (Wp2 : FVec Ideal S64x3 .f32) (brp2 : FVec Ideal S1x3 .f32) :
    hostTail A br3 Wp1 brp1 Wp2 brp2 = tail A br3 Wp1 brp1 Wp2 brp2 := by
  funext i
  obtain ⟨p, j, rfl⟩ : ∃ (p : Fin 100000) (j : Fin 3), i = ix2 p j := ⟨i 0, i 1, eq_ix2 i⟩
  unfold hostTail
  rw [hostLayer_eq]
  refine (Cert.LibDenseStage.hostBias_ix2 bcast_S1x3_S100000x3_0_1 _ brp2 p j).trans ?_
  rw [Cert.LibDenseStage.hostLayer_ix2 dot_S100000x64_S64x3_S100000x3_1_0_0_1_n_n rfl rfl rfl rfl rfl rfl
    bcast_S1x64_S100000x64_0_1 bcast_S_S100000x64 none (Cert.LibDenseStage.layer A br3 Wp1) brp1 Wp2 p j]
  rfl

/-! ## The network -/

/-- The network as the host states it. -/
def hostNet (x : FVec Ideal S100000x1 .f32) (e : IVec S2x3200000 32)
    (W1 : FVec Ideal S1x64 .f32) (b1 : FVec Ideal S64 .f32)
    (W2 : FVec Ideal S64x64 .f32) (b2 : FVec Ideal S64 .f32)
    (W3 : FVec Ideal S64x64 .f32) (b3 : FVec Ideal S64 .f32)
    (Wp1 : FVec Ideal S64x64 .f32) (bp1 : FVec Ideal S64 .f32)
    (Wp2 : FVec Ideal S64x3 .f32) (bp2 : FVec Ideal S3 .f32) :
    FVec Ideal S100000x3 .f32 :=
  hostTail (agg e (hostLayer (agg e (hostLayer (agg e (hostOuter x W1)) (row b1) W2)) (row b2) W3)) (row b3) Wp1 (row bp1) Wp2 (row3 bp2)

/-- The network with its dense stages index by index. -/
def net (x : FVec Ideal S100000x1 .f32) (e : IVec S2x3200000 32)
    (W1 : FVec Ideal S1x64 .f32) (b1 : FVec Ideal S64 .f32)
    (W2 : FVec Ideal S64x64 .f32) (b2 : FVec Ideal S64 .f32)
    (W3 : FVec Ideal S64x64 .f32) (b3 : FVec Ideal S64 .f32)
    (Wp1 : FVec Ideal S64x64 .f32) (bp1 : FVec Ideal S64 .f32)
    (Wp2 : FVec Ideal S64x3 .f32) (bp2 : FVec Ideal S3 .f32) :
    FVec Ideal S100000x3 .f32 :=
  tail (agg e (Cert.LibDenseStage.layer (agg e (Cert.LibDenseStage.layer (agg e (outer x W1)) (row b1) W2)) (row b2) W3)) (row b3) Wp1 (row bp1) Wp2 (row3 bp2)

theorem hostNet_eq (x : FVec Ideal S100000x1 .f32) (e : IVec S2x3200000 32)
    (W1 : FVec Ideal S1x64 .f32) (b1 : FVec Ideal S64 .f32)
    (W2 : FVec Ideal S64x64 .f32) (b2 : FVec Ideal S64 .f32)
    (W3 : FVec Ideal S64x64 .f32) (b3 : FVec Ideal S64 .f32)
    (Wp1 : FVec Ideal S64x64 .f32) (bp1 : FVec Ideal S64 .f32)
    (Wp2 : FVec Ideal S64x3 .f32) (bp2 : FVec Ideal S3 .f32) :
    hostNet x e W1 b1 W2 b2 W3 b3 Wp1 bp1 Wp2 bp2 = net x e W1 b1 W2 b2 W3 b3 Wp1 bp1 Wp2 bp2 := by
  unfold hostNet net
  rw [hostTail_eq, hostLayer_eq, hostLayer_eq, hostOuter_eq]

end Cert.Net

end
-- ==== Proof.Kept.lean ====
/-
  Buffers that stretches of host operations and regions leave alone.

  The buffer contents at the boundaries of @main's segments are a fold from the launch memory. A stretch of host
  operations changes only the buffers its operations write, and a region only its own arrays, so a buffer written
  by neither holds at the later boundary what it held at the earlier one. Each argument array a later segment
  reads is read back to the launch memory, and the three graph buffers (the edges' sources, targets and weights,
  computed once before the first region) are read back to the first region's entry.
-/
import proofs.«111814_j16303695855961_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A buffer that no operation of the named stretch writes keeps its contents over the stretch. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The argument arrays, read back to the launch memory -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by host_keeps hostOps2
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := by host_keeps hostOps2
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = m ((c : Thread nD τ).loc main_arg11) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := by host_keeps hostOps3
    _ = W7 m ρ c (Proc.devRef .tc main_arg8) := W8_of_ne m ρ c main_arg8 (by decide)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := by host_keeps hostOps3
    _ = W7 m ρ c (Proc.devRef .tc main_arg10) := W8_of_ne m ρ c main_arg10 (by decide)
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

/-! ## The graph buffers, read back to the first region's entry -/

theorem W4_main_v5_W3 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem W4_main_v6_W3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W4_main_v29_W3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem W6_main_v5_W3 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)

theorem W6_main_v6_W3 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem W6_main_v29_W3 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem W8_main_v5_W3 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by host_keeps hostOps2
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)

theorem W8_main_v6_W3 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem W8_main_v29_W3 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by host_keeps hostOps2
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

end Cert.KernelIdeal.Kept

end
-- ==== Proof.Stage0.lean ====
/-
  The first TensorCore region: the outer product of the one-column input by the one-row first weight, over ten blocks
  of 10000 rows each.

  At grid point t the region reads rows 10000·t … 10000·t + 9999 of the column and the whole row, and writes the
  same rows of its result: entry (p, j) of the written block is column entry p times row entry j. The ten blocks
  cover the result, so after the region the result array is the outer product of the column and the row as the
  region found them.
-/
import proofs.«111814_j16303695855961_1_alg».proof.Proof.Gen.KernelIdeal.Frame
import proofs.«111814_j16303695855961_1_alg».proof.Proof.LibDenseStage
import Idealize.ShloMosaic.Lib.Pipeline.Value
import Idealize.ShloMosaic.Lib.ValueIdx

set_option maxRecDepth 16384

noncomputable section

namespace Cert.KernelIdeal.Stage0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The outer product of a column of 100000 entries by a row of 64. -/
def outer (x : FVec Ideal S100000x1 .f32) (w : FVec Ideal S1x64 .f32) : FVec Ideal S100000x64 .f32 :=
  fun i => x (ix2 (i 0) (0 : Fin 1)) * w (ix2 (0 : Fin 1) (i 1))

/-- The body's one stored value at (p, j): the column block's entry p times the row's entry j. -/
theorem pay_ix2 (x0 : Vec Ideal S10000x1 .f32) (x1 : Vec Ideal S1x64 .f32) (p : Fin 10000) (j : Fin 64) :
    k0_pay1 (F := Ideal) x0 x1 (ix2 p j) = x0 (ix2 p (0 : Fin 1)) * x1 (ix2 (0 : Fin 1) j) :=
  Cert.LibDenseStage.coreOuter_ix2 broadcasts_S10000x1_S10000x64 broadcasts_S1x64_S10000x64 x0 x1 p j

/-- The printed index maps over the ten grid points: the column's and the result's blocks move down with the point,
    the row's stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the written block against one entry of the outer product of whole arrays. -/
theorem entry_eq (A : FVec Ideal S100000x1 .f32) (W : FVec Ideal S1x64 .f32)
    (x0 : Vec Ideal S10000x1 .f32) (x1 : Vec Ideal S1x64 .f32)
    (y : S10000x64.Idx) (i : S100000x64.Idx) (hj : i 1 = y 1)
    (hx : x0 (ix2 (y 0) (0 : Fin 1)) = A (ix2 (i 0) (0 : Fin 1))) (hw : x1 (ix2 (0 : Fin 1) (y 1)) = W (ix2 (0 : Fin 1) (y 1))) :
    k0_pay1 (F := Ideal) x0 x1 y = outer A W i := by
  obtain ⟨p, j, rfl⟩ : ∃ (p : Fin 10000) (j : Fin 64), y = ix2 p j := ⟨y 0, y 1, eq_ix2 y⟩
  obtain ⟨p', j', rfl⟩ : ∃ (p' : Fin 100000) (j' : Fin 64), i = ix2 p' j' := ⟨i 0, i 1, eq_ix2 i⟩
  have hj' : j' = j := hj
  subst hj'
  rw [pay_ix2]
  show x0 (ix2 p (0 : Fin 1)) * x1 (ix2 (0 : Fin 1) j') = A (ix2 p' (0 : Fin 1)) * W (ix2 (0 : Fin 1) j')
  rw [show x0 (ix2 p (0 : Fin 1)) = A (ix2 p' (0 : Fin 1)) from hx, show x1 (ix2 (0 : Fin 1) j') = W (ix2 (0 : Fin 1) j') from hw]

/-- WHAT POINT t WRITES BACK is block t of the outer product of the arrays as the region finds them. -/
theorem flushed_eq (c : Dev nD) (t : Fin cfg0.N) :
    (dat0 (F := Ideal) V c).flushed 2 t
      = ((cfg0.win 2).blk t).view.read (Elt Ideal) (outer (V c main_arg0) (V c main_arg2)) := by
  show (cfg0.win 2).cut (grid0.coords t) ((dat0 V c).after 2 t) = _
  rw [after0_2]
  unfold out0_2
  rw [View.canon_unit_zero hz]
  simp only [View.ld_unit_zero (S := S10000x1) hz, View.ld_unit_zero (S := S1x64) hz]
  obtain ⟨e0, e1, e2, e3, e4, e5⟩ := idx_facts t
  funext y
  show k0_pay1 (iblk0 V c 0 t) (iblk0 V c 1 t) y
    = outer (V c main_arg0) (V c main_arg2) (((cfg0.win 2).blk t).view.emb y)
  refine entry_eq (V c main_arg0) (V c main_arg2) _ _ y _ ?_ ?_ ?_
  · apply Fin.ext
    show win0_2.index t (1 : Fin 2) * 64 + 1 * (y 1).val = (y 1).val
    omega
  · show V c main_arg0 (((cfg0.win 0).blk t).view.emb (ix2 (y 0) (0 : Fin 1))) = V c main_arg0 (ix2 ((((cfg0.win 2).blk t).view.emb y) 0) (0 : Fin 1))
    refine congrArg (V c main_arg0) (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 1 + 1 * 0 = 0; omega
  · show V c main_arg2 (((cfg0.win 1).blk t).view.emb (ix2 (0 : Fin 1) (y 1))) = V c main_arg2 (ix2 (0 : Fin 1) (y 1))
    refine congrArg (V c main_arg2) (funext fun a => Fin.ext ?_)
    match a with
    | ⟨0, _⟩ => show win0_1.index t (0 : Fin 2) * 1 + 1 * 0 = 0; omega
    | ⟨1, _⟩ => show win0_1.index t (1 : Fin 2) * 64 + 1 * (y 1).val = (y 1).val; omega

/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every row of the result is in the block of the point "row / 10000". -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; omega
  refine ⟨⟨(i 0).val / 10000, ht⟩, flush0_2 _, ?_⟩
  rw [mem_blk]
  obtain ⟨-, -, -, -, e4, e5⟩ := idx_facts ⟨(i 0).val / 10000, ht⟩
  have e4' : win0_2.index ⟨(i 0).val / 10000, ht⟩ (0 : Fin 2) = (i 0).val / 10000 := e4
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    omega

/-- THE RESULT ARRAY after the region: the outer product of the column and the row as the region found them. -/
theorem final (c : Dev nD) :
    (dat0 (F := Ideal) V c).arrAt 2 cfg0.N = outer (V c main_arg0) (V c main_arg2) :=
  (dat0 (F := Ideal) V c).arrAt_eq_of_cover 2 _ (fun t _ => flushed_eq V c t) cover

end Cert.KernelIdeal.Stage0

end
-- ==== Proof.Stage1.lean ====
/-
  The second TensorCore region: a dense stage over a table of 100000 rows, ten blocks of 10000 rows each.

  At grid point t the region reads rows 10000·t … 10000·t + 9999 of the aggregated table, the whole bias row and the
  whole weight, and writes the same rows of its result. Entry (p, j) of the block it writes is the dense stage's
  entry of the block it read, and a dense stage's entry reads one row of its matrix only, so the block written at t
  is the block at t of the dense stage of the WHOLE table. The ten blocks cover the result, so after the region the
  result array is the dense stage of the table, the bias row and the weight as the region found them.
-/
import proofs.«111814_j16303695855961_1_alg».proof.Proof.Gen.KernelIdeal.Frame
import proofs.«111814_j16303695855961_1_alg».proof.Proof.LibDenseStage
import Idealize.ShloMosaic.Lib.Pipeline.Value
import Idealize.ShloMosaic.Lib.ValueIdx

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, j): the dense stage's entry of the loaded blocks (a change of float format is
    the identity on the extended reals, and a reshape to the same shape changes nothing). -/
theorem pay_ix2 (x0 : Vec Ideal S10000x64 .f32) (x1 : Vec Ideal S1x64 .f32) (x2 : Vec Ideal S64x64 .f32) (p : Fin 10000) (j : Fin 64) :
    k1_pay1 (F := Ideal) x0 x1 x2 (ix2 p j) = Cert.LibDenseStage.layerAt x0 x1 x2 p j :=
  (Cert.LibDenseStage.coreLayer_ix2 dot_S10000x64_S64x64_S10000x64_1_0_0_1_n_n rfl rfl rfl rfl rfl rfl broadcasts_S1x64_S10000x64
      bitsLt_bf16_f32 none (shapeCast S10000x64 x0 shapeCasts_S10000x64_S10000x64) (shapeCast S1x64 x1 shapeCasts_S1x64_S1x64) x2 p j).trans
    (by rw [shapeCast_self, shapeCast_self])

/-- The printed index maps over the ten grid points: the table's and the result's blocks move down with the point,
    the bias row's and the weight's stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the written block against one entry of the dense stage of whole arrays: equal when the block's row
    is the array's row, the bias rows agree and the weights agree. -/
theorem entry_eq (A : FVec Ideal S100000x64 .f32) (B : FVec Ideal S1x64 .f32) (W : FVec Ideal S64x64 .f32)
    (x0 : Vec Ideal S10000x64 .f32) (x1 : Vec Ideal S1x64 .f32) (x2 : Vec Ideal S64x64 .f32)
    (y : S10000x64.Idx) (i : S100000x64.Idx) (hj : i 1 = y 1)
    (hx : ∀ q : Fin 64, x0 (ix2 (y 0) q) = A (ix2 (i 0) q)) (hb : ∀ q : Fin 64, x1 (ix2 (0 : Fin 1) q) = B (ix2 (0 : Fin 1) q))
    (hw : ∀ q : Fin 64, x2 (ix2 q (y 1)) = W (ix2 q (y 1))) :
    k1_pay1 (F := Ideal) x0 x1 x2 y = Cert.LibDenseStage.layer A B W i := by
  obtain ⟨p, j, rfl⟩ : ∃ (p : Fin 10000) (j : Fin 64), y = ix2 p j := ⟨y 0, y 1, eq_ix2 y⟩
  obtain ⟨p', j', rfl⟩ : ∃ (p' : Fin 100000) (j' : Fin 64), i = ix2 p' j' := ⟨i 0, i 1, eq_ix2 i⟩
  have hj' : j' = j := hj
  subst hj'
  rw [pay_ix2, Cert.LibDenseStage.layer_ix2]
  exact Cert.LibDenseStage.layerAt_congr A x0 B x1 W x2 p p' j' hx hb hw

/-- WHAT POINT t WRITES BACK is block t of the dense stage of the arrays as the region finds them. -/
theorem flushed_eq (c : Dev nD) (t : Fin cfg1.N) :
    (dat1 (F := Ideal) V c).flushed 3 t
      = ((cfg1.win 3).blk t).view.read (Elt Ideal) (Cert.LibDenseStage.layer (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext y
  show k1_pay1 (iblk1 V c 0 t) (iblk1 V c 1 t) (iblk1 V c 2 t) y
    = Cert.LibDenseStage.layer (V c main_v43) (V c main_v44) (V c main_arg4) (((cfg1.win 3).blk t).view.emb y)
  refine entry_eq (V c main_v43) (V c main_v44) (V c main_arg4) _ _ _ y _ ?_ ?_ ?_ ?_
  · apply Fin.ext
    show win1_3.index t (1 : Fin 2) * 64 + 1 * (y 1).val = (y 1).val
    omega
  · intro q
    show V c main_v43 (((cfg1.win 0).blk t).view.emb (ix2 (y 0) q)) = V c main_v43 (ix2 ((((cfg1.win 3).blk t).view.emb y) 0) q)
    refine congrArg (V c main_v43) (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 64 + 1 * q.val = q.val; omega
  · intro q
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · intro q
    show V c main_arg4 (((cfg1.win 2).blk t).view.emb (ix2 q (y 1))) = V c main_arg4 (ix2 q (y 1))
    refine congrArg (V c main_arg4) (funext fun a => Fin.ext ?_)
    match a with
    | ⟨0, _⟩ => show win1_2.index t (0 : Fin 2) * 64 + 1 * q.val = q.val; omega
    | ⟨1, _⟩ => show win1_2.index t (1 : Fin 2) * 64 + 1 * (y 1).val = (y 1).val; omega

/-- An index of the result array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Every row of the result is in the block of the point "row / 10000". -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < cfg1.N := by show (i 0).val / 10000 < grid1.N; omega
  refine ⟨⟨(i 0).val / 10000, ht⟩, flush1_3 _, ?_⟩
  rw [mem_blk]
  obtain ⟨-, -, -, -, -, -, e6, e7⟩ := idx_facts ⟨(i 0).val / 10000, ht⟩
  have e6' : win1_3.index ⟨(i 0).val / 10000, ht⟩ (0 : Fin 2) = (i 0).val / 10000 := e6
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    omega

/-- THE RESULT ARRAY after the region: the dense stage of the table, the bias row and the weight as the region found
    them. -/
theorem final (c : Dev nD) :
    (dat1 (F := Ideal) V c).arrAt 3 cfg1.N = Cert.LibDenseStage.layer (V c main_v43) (V c main_v44) (V c main_arg4) :=
  (dat1 (F := Ideal) V c).arrAt_eq_of_cover 3 _ (fun t _ => flushed_eq V c t) cover

end Cert.KernelIdeal.Stage1

end
-- ==== Proof.Stage2.lean ====
/-
  The third TensorCore region: a dense stage over a table of 100000 rows, ten blocks of 10000 rows each.

  At grid point t the region reads rows 10000·t … 10000·t + 9999 of the aggregated table, the whole bias row and the
  whole weight, and writes the same rows of its result. Entry (p, j) of the block it writes is the dense stage's
  entry of the block it read, and a dense stage's entry reads one row of its matrix only, so the block written at t
  is the block at t of the dense stage of the WHOLE table. The ten blocks cover the result, so after the region the
  result array is the dense stage of the table, the bias row and the weight as the region found them.
-/
import proofs.«111814_j16303695855961_1_alg».proof.Proof.Gen.KernelIdeal.Frame
import proofs.«111814_j16303695855961_1_alg».proof.Proof.LibDenseStage
import Idealize.ShloMosaic.Lib.Pipeline.Value
import Idealize.ShloMosaic.Lib.ValueIdx

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, j): the dense stage's entry of the loaded blocks (a change of float format is
    the identity on the extended reals, and a reshape to the same shape changes nothing). -/
theorem pay_ix2 (x0 : Vec Ideal S10000x64 .f32) (x1 : Vec Ideal S1x64 .f32) (x2 : Vec Ideal S64x64 .f32) (p : Fin 10000) (j : Fin 64) :
    k2_pay1 (F := Ideal) x0 x1 x2 (ix2 p j) = Cert.LibDenseStage.layerAt x0 x1 x2 p j :=
  (Cert.LibDenseStage.coreLayer_ix2 dot_S10000x64_S64x64_S10000x64_1_0_0_1_n_n rfl rfl rfl rfl rfl rfl broadcasts_S1x64_S10000x64
      bitsLt_bf16_f32 none (shapeCast S10000x64 x0 shapeCasts_S10000x64_S10000x64) (shapeCast S1x64 x1 shapeCasts_S1x64_S1x64) x2 p j).trans
    (by rw [shapeCast_self, shapeCast_self])

/-- The printed index maps over the ten grid points: the table's and the result's blocks move down with the point,
    the bias row's and the weight's stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of the written block against one entry of the dense stage of whole arrays: equal when the block's row
    is the array's row, the bias rows agree and the weights agree. -/
theorem entry_eq (A : FVec Ideal S100000x64 .f32) (B : FVec Ideal S1x64 .f32) (W : FVec Ideal S64x64 .f32)
    (x0 : Vec Ideal S10000x64 .f32) (x1 : Vec Ideal S1x64 .f32) (x2 : Vec Ideal S64x64 .f32)
    (y : S10000x64.Idx) (i : S100000x64.Idx) (hj : i 1 = y 1)
    (hx : ∀ q : Fin 64, x0 (ix2 (y 0) q) = A (ix2 (i 0) q)) (hb : ∀ q : Fin 64, x1 (ix2 (0 : Fin 1) q) = B (ix2 (0 : Fin 1) q))
    (hw : ∀ q : Fin 64, x2 (ix2 q (y 1)) = W (ix2 q (y 1))) :
    k2_pay1 (F := Ideal) x0 x1 x2 y = Cert.LibDenseStage.layer A B W i := by
  obtain ⟨p, j, rfl⟩ : ∃ (p : Fin 10000) (j : Fin 64), y = ix2 p j := ⟨y 0, y 1, eq_ix2 y⟩
  obtain ⟨p', j', rfl⟩ : ∃ (p' : Fin 100000) (j' : Fin 64), i = ix2 p' j' := ⟨i 0, i 1, eq_ix2 i⟩
  have hj' : j' = j := hj
  subst hj'
  rw [pay_ix2, Cert.LibDenseStage.layer_ix2]
  exact Cert.LibDenseStage.layerAt_congr A x0 B x1 W x2 p p' j' hx hb hw

/-- WHAT POINT t WRITES BACK is block t of the dense stage of the arrays as the region finds them. -/
theorem flushed_eq (c : Dev nD) (t : Fin cfg2.N) :
    (dat2 (F := Ideal) V c).flushed 3 t
      = ((cfg2.win 3).blk t).view.read (Elt Ideal) (Cert.LibDenseStage.layer (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext y
  show k2_pay1 (iblk2 V c 0 t) (iblk2 V c 1 t) (iblk2 V c 2 t) y
    = Cert.LibDenseStage.layer (V c main_v58) (V c main_v59) (V c main_arg6) (((cfg2.win 3).blk t).view.emb y)
  refine entry_eq (V c main_v58) (V c main_v59) (V c main_arg6) _ _ _ y _ ?_ ?_ ?_ ?_
  · apply Fin.ext
    show win2_3.index t (1 : Fin 2) * 64 + 1 * (y 1).val = (y 1).val
    omega
  · intro q
    show V c main_v58 (((cfg2.win 0).blk t).view.emb (ix2 (y 0) q)) = V c main_v58 (ix2 ((((cfg2.win 3).blk t).view.emb y) 0) q)
    refine congrArg (V c main_v58) (funext fun a => Fin.ext ?_)
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 64 + 1 * q.val = q.val; omega
  · intro q
    show V c main_v59 (((cfg2.win 1).blk t).view.emb (ix2 (0 : Fin 1) q)) = V c main_v59 (ix2 (0 : Fin 1) q)
    refine congrArg (V c main_v59) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  · intro q
    show V c main_arg6 (((cfg2.win 2).blk t).view.emb (ix2 q (y 1))) = V c main_arg6 (ix2 q (y 1))
    refine congrArg (V c main_arg6) (funext fun a => Fin.ext ?_)
    match a with
    | ⟨0, _⟩ => show win2_2.index t (0 : Fin 2) * 64 + 1 * q.val = q.val; omega
    | ⟨1, _⟩ => show win2_2.index t (1 : Fin 2) * 64 + 1 * (y 1).val = (y 1).val; omega

/-- An index of the result array is in point t's block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v60).slice (win2_3.rect t)).set ↔ _
  rw [View.set_slice_whole, Rect.mem_set_unit]
  exact Iff.rfl

/-- Every row of the result is in the block of the point "row / 10000". -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  have ht : (i 0).val / 10000 < cfg2.N := by show (i 0).val / 10000 < grid2.N; omega
  refine ⟨⟨(i 0).val / 10000, ht⟩, flush2_3 _, ?_⟩
  rw [mem_blk]
  obtain ⟨-, -, -, -, -, -, e6, e7⟩ := idx_facts ⟨(i 0).val / 10000, ht⟩
  have e6' : win2_3.index ⟨(i 0).val / 10000, ht⟩ (0 : Fin 2) = (i 0).val / 10000 := e6
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    omega
  | ⟨1, _⟩ =>
    show win2_3.index ⟨(i 0).val / 10000, ht⟩ (1 : Fin 2) * 64 ≤ (i 1).val ∧ (i 1).val < win2_3.index ⟨(i 0).val / 10000, ht⟩ (1 : Fin 2) * 64 + 64
    omega

/-- THE RESULT ARRAY after the region: the dense stage of the table, the bias row and the weight as the region found
    them. -/
theorem final (c : Dev nD) :
    (dat2 (F := Ideal) V c).arrAt 3 cfg2.N = Cert.LibDenseStage.layer (V c main_v58) (V c main_v59) (V c main_arg6) :=
  (dat2 (F := Ideal) V c).arrAt_eq_of_cover 3 _ (fun t _ => flushed_eq V c t) cover

end Cert.KernelIdeal.Stage2

end
-- ==== Proof.Stage3.lean ====
/-
  The last TensorCore region: two dense stages and a final bias row over a table of 100000 rows, ten blocks of 10000
  rows each.

  At grid point t the region reads rows 10000·t … 10000·t + 9999 of the aggregated table and, whole, two bias rows of
  64, a 64 × 64 weight, a 64 × 3 weight and a bias row of 3; it writes the same rows of its [100000, 3] result.
  Entry (p, j) of the written block is the second dense stage's entry (p, j) of the first dense stage of the block,
  plus the last bias row's entry j; a dense stage's entry reads one row of its matrix only, so this is the same
  entry of the whole table's two stages. The ten blocks cover the result.
-/
import proofs.«111814_j16303695855961_1_alg».proof.Proof.Gen.KernelIdeal.Frame
import proofs.«111814_j16303695855961_1_alg».proof.Proof.LibDenseStage
import Idealize.ShloMosaic.Lib.Pipeline.Value
import Idealize.ShloMosaic.Lib.ValueIdx

set_option maxRecDepth 16384

noncomputable section

namespace Cert.KernelIdeal.Stage3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (p, j) of the last two dense stages and the final bias row, over any number of rows. -/
def tailAt {a : ℕ} (A : FVec Ideal ⟨2, ![a, 64]⟩ .f32) (b3 : FVec Ideal S1x64 .f32) (w1 : FVec Ideal S64x64 .f32)
    (b1 : FVec Ideal S1x64 .f32) (w2 : FVec Ideal S64x3 .f32) (b2 : FVec Ideal S1x3 .f32) (p : Fin a) (j : Fin 3) : Ideal .f32 :=
  Cert.LibDenseStage.layerAt (Cert.LibDenseStage.layer A b3 w1) b1 w2 p j + b2 (ix2 (0 : Fin 1) j)

/-- The last two dense stages and the final bias row of the whole table. -/
def tail (A : FVec Ideal S100000x64 .f32) (b3 : FVec Ideal S1x64 .f32) (w1 : FVec Ideal S64x64 .f32)
    (b1 : FVec Ideal S1x64 .f32) (w2 : FVec Ideal S64x3 .f32) (b2 : FVec Ideal S1x3 .f32) : FVec Ideal S100000x3 .f32 :=
  fun i => tailAt A b3 w1 b1 w2 b2 (i 0) (i 1)

/-- Entry (p, j) reads row p of the table only. -/
theorem tailAt_congr {a a' : ℕ} (A : FVec Ideal ⟨2, ![a, 64]⟩ .f32) (x : FVec Ideal ⟨2, ![a', 64]⟩ .f32)
    (B3 b3 : FVec Ideal S1x64 .f32) (W1 w1 : FVec Ideal S64x64 .f32) (B1 b1 : FVec Ideal S1x64 .f32)
    (W2 w2 : FVec Ideal S64x3 .f32) (B2 b2 : FVec Ideal S1x3 .f32) (p : Fin a') (p' : Fin a) (j : Fin 3)
    (hx : ∀ q : Fin 64, x (ix2 p q) = A (ix2 p' q)) (hb3 : b3 = B3) (hw1 : w1 = W1) (hb1 : b1 = B1) (hw2 : w2 = W2)
    (hb2 : b2 = B2) :
    tailAt x b3 w1 b1 w2 b2 p j = tailAt A B3 W1 B1 W2 B2 p' j := by
  subst hb3 hw1 hb1 hw2 hb2
  unfold tailAt
  refine congrArg (· + b2 (ix2 (0 : Fin 1) j)) ?_
  refine Cert.LibDenseStage.layerAt_congr (Cert.LibDenseStage.layer A b3 w1) (Cert.LibDenseStage.layer x b3 w1) b1 b1 w2 w2 p p' j (fun q => ?_)
    (fun _ => rfl) (fun _ => rfl)
  rw [Cert.LibDenseStage.layer_ix2, Cert.LibDenseStage.layer_ix2]
  exact Cert.LibDenseStage.layerAt_congr A x b3 b3 w1 w1 p p' q hx (fun _ => rfl) (fun _ => rfl)

/-- The body's one stored value at (p, j) (a change of float format is the identity on the extended reals, and a
    reshape to the same shape changes nothing). -/
theorem pay_ix2 (x0 : Vec Ideal S10000x64 .f32) (x1 : Vec Ideal S1x64 .f32) (x2 : Vec Ideal S64x64 .f32)
    (x3 : Vec Ideal S1x64 .f32) (x4 : Vec Ideal S64x3 .f32) (x5 : Vec Ideal S1x3 .f32) (p : Fin 10000) (j : Fin 3) :
    k3_pay1 (F := Ideal) x0 x1 x2 x3 x4 x5 (ix2 p j) = tailAt x0 x1 x2 x3 x4 x5 p j := by
  refine (Cert.LibDenseStage.coreBias_ix2 broadcasts_S1x3_S10000x3 _ (shapeCast S1x3 x5 shapeCasts_S1x3_S1x3) p j).trans ?_
  simp only [shapeCast_self]
  unfold tailAt
  refine congrArg (· + x5 (ix2 (0 : Fin 1) j)) ?_
  refine (Cert.LibDenseStage.coreLayer_ix2 dot_S10000x64_S64x3_S10000x3_1_0_0_1_n_n rfl rfl rfl rfl rfl rfl broadcasts_S1x64_S10000x64
    bitsLt_bf16_f32 none _ x3 x4 p j).trans ?_
  exact congrArg (fun h => Cert.LibDenseStage.layerAt h x3 x4 p j)
    (Cert.LibDenseStage.coreLayer_eq dot_S10000x64_S64x64_S10000x64_1_0_0_1_n_n rfl rfl rfl rfl rfl rfl broadcasts_S1x64_S10000x64
      bitsLt_bf16_f32 none x0 x1 x2)

/-- The printed index maps over the ten grid points: the table's and the result's blocks move down with the point,
    every other window's block stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- One entry of the written block against one entry of the whole table's stages. -/
theorem entry_eq (A : FVec Ideal S100000x64 .f32) (B3 : FVec Ideal S1x64 .f32) (W1 : FVec Ideal S64x64 .f32)
    (B1 : FVec Ideal S1x64 .f32) (W2 : FVec Ideal S64x3 .f32) (B2 : FVec Ideal S1x3 .f32)
    (x0 : Vec Ideal S10000x64 .f32) (x1 : Vec Ideal S1x64 .f32) (x2 : Vec Ideal S64x64 .f32)
    (x3 : Vec Ideal S1x64 .f32) (x4 : Vec Ideal S64x3 .f32) (x5 : Vec Ideal S1x3 .f32)
    (y : S10000x3.Idx) (i : S100000x3.Idx) (hj : i 1 = y 1)
    (hx : ∀ q : Fin 64, x0 (ix2 (y 0) q) = A (ix2 (i 0) q)) (h1 : x1 = B3) (h2 : x2 = W1) (h3 : x3 = B1) (h4 : x4 = W2)
    (h5 : x5 = B2) :
    k3_pay1 (F := Ideal) x0 x1 x2 x3 x4 x5 y = tail A B3 W1 B1 W2 B2 i := by
  obtain ⟨p, j, rfl⟩ : ∃ (p : Fin 10000) (j : Fin 3), y = ix2 p j := ⟨y 0, y 1, eq_ix2 y⟩
  obtain ⟨p', j', rfl⟩ : ∃ (p' : Fin 100000) (j' : Fin 3), i = ix2 p' j' := ⟨i 0, i 1, eq_ix2 i⟩
  have hj' : j' = j := hj
  subst hj'
  rw [pay_ix2]
  exact tailAt_congr A x0 B3 x1 W1 x2 B1 x3 W2 x4 B2 x5 p p' j' hx h1 h2 h3 h4 h5

set_option maxHeartbeats 3200000 in
/-- WHAT POINT t WRITES BACK is block t of the stages of the arrays as the region finds them. -/
theorem flushed_eq (c : Dev nD) (t : Fin cfg3.N) :
    (dat3 (F := Ideal) V c).flushed 6 t
      = ((cfg3.win 6).blk t).view.read (Elt Ideal)
          (tail (V c main_v73) (V c main_v74) (V c main_arg8) (V c main_v75) (V c main_arg10) (V c main_v76)) := by
  show (cfg3.win 6).cut (grid3.coords t) ((dat3 V c).after 6 t) = _
  rw [after3_6]
  unfold out3_6
  rw [View.canon_unit_zero hz]
  simp only [View.ld_unit_zero (S := S10000x64) hz, View.ld_unit_zero (S := S1x64) hz, View.ld_unit_zero (S := S64x64) hz,
    View.ld_unit_zero (S := S64x3) hz, View.ld_unit_zero (S := S1x3) hz]
  obtain ⟨e0, e1, e2, e3, e4, e5, e6, e7, e8, e9, e10, e11, e12, e13⟩ := idx_facts t
  funext y
  show k3_pay1 (iblk3 V c 0 t) (iblk3 V c 1 t) (iblk3 V c 2 t) (iblk3 V c 3 t) (iblk3 V c 4 t) (iblk3 V c 5 t) y
    = tail (V c main_v73) (V c main_v74) (V c main_arg8) (V c main_v75) (V c main_arg10) (V c main_v76) (((cfg3.win 6).blk t).view.emb y)
  refine entry_eq (V c main_v73) (V c main_v74) (V c main_arg8) (V c main_v75) (V c main_arg10) (V c main_v76) _ _ _ _ _ _ y _ ?_ ?_ ?_ ?_ ?_ ?_ ?_
  · apply Fin.ext
    show win3_6.index t (1 : Fin 2) * 3 + 1 * (y 1).val = (y 1).val
    omega
  · intro q
    show V c main_v73 (((cfg3.win 0).blk t).view.emb (ix2 (y 0) q)) = V c main_v73 (ix2 ((((cfg3.win 6).blk t).view.emb y) 0) q)
    refine congrArg (V c main_v73) (funext fun a => Fin.ext ?_)
    match a with
    | ⟨0, _⟩ => show win3_0.index t (0 : Fin 2) * 10000 + 1 * (y 0).val = win3_6.index t (0 : Fin 2) * 10000 + 1 * (y 0).val; omega
    | ⟨1, _⟩ => show win3_0.index t (1 : Fin 2) * 64 + 1 * q.val = q.val; omega
  · funext z
    show V c main_v74 (((cfg3.win 1).blk t).view.emb z) = V c main_v74 z
    refine congrArg (V c main_v74) (funext fun a => Fin.ext ?_)
    match a with
    | ⟨0, _⟩ => show win3_1.index t (0 : Fin 2) * 1 + 1 * (z 0).val = (z 0).val; omega
    | ⟨1, _⟩ => show win3_1.index t (1 : Fin 2) * 64 + 1 * (z 1).val = (z 1).val; omega
  · funext z
    show V c main_arg8 (((cfg3.win 2).blk t).view.emb z) = V c main_arg8 z
    refine congrArg (V c main_arg8) (funext fun a => Fin.ext ?_)
    match a with
    | ⟨0, _⟩ => show win3_2.index t (0 : Fin 2) * 64 + 1 * (z 0).val = (z 0).val; omega
    | ⟨1, _⟩ => show win3_2.index t (1 : Fin 2) * 64 + 1 * (z 1).val = (z 1).val; omega
  · funext z
    show V c main_v75 (((cfg3.win 3).blk t).view.emb z) = V c main_v75 z
    refine congrArg (V c main_v75) (funext fun a => Fin.ext ?_)
    match a with
    | ⟨0, _⟩ => show win3_3.index t (0 : Fin 2) * 1 + 1 * (z 0).val = (z 0).val; omega
    | ⟨1, _⟩ => show win3_3.index t (1 : Fin 2) * 64 + 1 * (z 1).val = (z 1).val; omega
  · funext z
    show V c main_arg10 (((cfg3.win 4).blk t).view.emb z) = V c main_arg10 z
    refine congrArg (V c main_arg10) (funext fun a => Fin.ext ?_)
    match a with
    | ⟨0, _⟩ => show win3_4.index t (0 : Fin 2) * 64 + 1 * (z 0).val = (z 0).val; omega
    | ⟨1, _⟩ => show win3_4.index t (1 : Fin 2) * 3 + 1 * (z 1).val = (z 1).val; omega
  · funext z
    show V c main_v76 (((cfg3.win 5).blk t).view.emb z) = V c main_v76 z
    refine congrArg (V c main_v76) (funext fun a => Fin.ext ?_)
    match a with
    | ⟨0, _⟩ => show win3_5.index t (0 : Fin 2) * 1 + 1 * (z 0).val = (z 0).val; omega
    | ⟨1, _⟩ => show win3_5.index t (1 : Fin 2) * 3 + 1 * (z 1).val = (z 1).val; omega

/-- An index of the result array is in point t's block iff each coordinate is in the block's range on its axis. -/
theorem mem_blk (t : Fin cfg3.N) (i : S100000x3.Idx) :
    i ∈ ((cfg3.win 6).blk t).view.set ↔ ∀ a : Fin 2, win3_6.index t a * S10000x3.size a ≤ (i a).val ∧ (i a).val < win3_6.index t a * S10000x3.size a + S10000x3.size a := by
  show i ∈ ((View.whole main_v77).slice (win3_6.rect t)).set ↔ _
  rw [View.set_slice_whole, Rect.mem_set_unit]
  exact Iff.rfl

/-- Every row of the result is in the block of the point "row / 10000". -/
theorem cover (i : S100000x3.Idx) : ∃ t : Fin cfg3.N, (cfg3.win 6).flush t = true ∧ i ∈ ((cfg3.win 6).blk t).view.set := by
  have hi0 : (i 0).val < 100000 := (i 0).isLt
  have hi1 : (i 1).val < 3 := (i 1).isLt
  have hN : grid3.N = 10 := N_3
  have ht : (i 0).val / 10000 < cfg3.N := by show (i 0).val / 10000 < grid3.N; omega
  refine ⟨⟨(i 0).val / 10000, ht⟩, flush3_6 _, ?_⟩
  rw [mem_blk]
  obtain ⟨-, -, -, -, -, -, -, -, -, -, -, -, e12, e13⟩ := idx_facts ⟨(i 0).val / 10000, ht⟩
  have e12' : win3_6.index ⟨(i 0).val / 10000, ht⟩ (0 : Fin 2) = (i 0).val / 10000 := e12
  intro a
  match a with
  | ⟨0, _⟩ =>
    show win3_6.index ⟨(i 0).val / 10000, ht⟩ (0 : Fin 2) * 10000 ≤ (i 0).val ∧ (i 0).val < win3_6.index ⟨(i 0).val / 10000, ht⟩ (0 : Fin 2) * 10000 + 10000
    omega
  | ⟨1, _⟩ =>
    show win3_6.index ⟨(i 0).val / 10000, ht⟩ (1 : Fin 2) * 3 ≤ (i 1).val ∧ (i 1).val < win3_6.index ⟨(i 0).val / 10000, ht⟩ (1 : Fin 2) * 3 + 3
    omega

/-- THE RESULT ARRAY after the region: the last two dense stages and the final bias row of the arrays as the region
    found them. -/
theorem final (c : Dev nD) :
    (dat3 (F := Ideal) V c).arrAt 6 cfg3.N
      = tail (V c main_v73) (V c main_v74) (V c main_arg8) (V c main_v75) (V c main_arg10) (V c main_v76) :=
  (dat3 (F := Ideal) V c).arrAt_eq_of_cover 6 _ (fun t _ => flushed_eq V c t) cover

end Cert.KernelIdeal.Stage3

end
-- ==== Proof.Value.lean ====
/-
  The kernel program's result as the network of its argument arrays.

  The contents of the buffers at the boundaries of @main's segments are followed from the launch to the return. Before
  the first region the host computes, from the edge list alone, the edges' sources, targets and weights. The first
  region leaves the outer product of the input column and the first weight. Each later stretch aggregates the
  previous region's result over the graph and lays the next bias vector out as a row (a reshape of a vector into
  a row is its broadcast along axis 1); each later region leaves a dense stage of what its stretch prepared. The
  last region's result is the network.
-/
import proofs.«111814_j16303695855961_1_alg».proof.Proof.Gen.KernelIdeal.Frame
import proofs.«111814_j16303695855961_1_alg».proof.Proof.Net
import proofs.«111814_j16303695855961_1_alg».proof.Proof.Kept
import proofs.«111814_j16303695855961_1_alg».proof.Proof.Stage0
import proofs.«111814_j16303695855961_1_alg».proof.Proof.Stage1
import proofs.«111814_j16303695855961_1_alg».proof.Proof.Stage2
import proofs.«111814_j16303695855961_1_alg».proof.Proof.Stage3
import proofs.«111814_j16303695855961_1_alg».proof.Proof.LibColumnRow
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Two stretches of host operations one after the other are their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The first seven operations of the opening stretch make the edges' sources and targets; the rest of the stretch
    is run from what those leave. -/
theorem W1_eq (c : Dev nD) :
    W1 m ρ c = after (List.drop 7 hostOps0) (after (List.take 7 hostOps0) (W0 m ρ c)) := by
  rw [← after_append, List.take_append_drop]

/-! ## The graph buffers at the first region's entry -/

set_option maxHeartbeats 8000000 in
/-- The edges' sources, after the first seven operations. -/
theorem edges_srcs (c : Dev nD) :
    after (List.take 7 hostOps0) (W0 m ρ c) (Proc.devRef .tc main_v5) = Cert.Net.srcs (m ((c : Thread nD τ).loc main_arg1)) := by
  simp only [hostOps0, List.take, List.take_succ_cons, List.take_zero]
  after_results_simp <;> rfl

set_option maxHeartbeats 8000000 in
/-- The edges' targets, after the first seven operations. -/
theorem edges_dsts (c : Dev nD) :
    after (List.take 7 hostOps0) (W0 m ρ c) (Proc.devRef .tc main_v6) = Cert.Net.dsts (m ((c : Thread nD τ).loc main_arg1)) := by
  simp only [hostOps0, List.take, List.take_succ_cons, List.take_zero]
  after_results_simp <;> rfl

set_option maxHeartbeats 8000000 in
/-- The rest of the opening stretch leaves the sources where they are, -/
theorem rest_srcs (Wp : Valuation τ sig (Elt Ideal)) :
    after (List.drop 7 hostOps0) Wp (Proc.devRef .tc main_v5) = Wp (Proc.devRef .tc main_v5) := by
  simp only [hostOps0, List.drop, List.drop_succ_cons, List.drop_zero]
  after_results_simp <;> rfl

set_option maxHeartbeats 8000000 in
/-- and the targets; -/
theorem rest_dsts (Wp : Valuation τ sig (Elt Ideal)) :
    after (List.drop 7 hostOps0) Wp (Proc.devRef .tc main_v6) = Wp (Proc.devRef .tc main_v6) := by
  simp only [hostOps0, List.drop, List.drop_succ_cons, List.drop_zero]
  after_results_simp <;> rfl

set_option maxHeartbeats 8000000 in
/-- it marks the nodes of positive degree, -/
theorem rest_pos (Wp : Valuation τ sig (Elt Ideal)) :
    after (List.drop 7 hostOps0) Wp (Proc.devRef .tc main_v12)
      = cmpf (F := Ideal) .ogt (Cert.Net.degOf (Wp (Proc.devRef .tc main_v6)))
          (broadcastInDim Cert.ReferenceIdeal.S100000 ![] Cert.ReferenceIdeal.Gen.bcast_S_S100000 (constant (F := Ideal) Cert.ReferenceIdeal.S_ .f32 0x00000000#32)) := by
  simp only [hostOps0, List.drop, List.drop_succ_cons, List.drop_zero]
  after_results_simp <;> rfl

set_option maxHeartbeats 8000000 in
/-- takes the inverse root of every degree, -/
theorem rest_rsqrt (Wp : Valuation τ sig (Elt Ideal)) :
    after (List.drop 7 hostOps0) Wp (Proc.devRef .tc main_v13)
      = Host.rsqrt (F := Ideal) (Cert.Net.degOf (Wp (Proc.devRef .tc main_v6))) := by
  simp only [hostOps0, List.drop, List.drop_succ_cons, List.drop_zero]
  after_results_simp <;> rfl

set_option maxHeartbeats 8000000 in
/-- and holds a zero. -/
theorem rest_zero (Wp : Valuation τ sig (Elt Ideal)) :
    after (List.drop 7 hostOps0) Wp (Proc.devRef .tc main_cst_2) = constant (F := Ideal) Cert.ReferenceIdeal.S_ .f32 0x00000000#32 := by
  simp only [hostOps0, List.drop, List.drop_succ_cons, List.drop_zero]
  after_results_simp <;> rfl

set_option maxHeartbeats 8000000 in
/-- The second stretch selects, per node, the inverse root where the degree is positive and the zero elsewhere (the
    selection is a called function of the program: its values pass through references typed by its signature, which
    changes nothing). -/
theorem where_scale (Wp : Valuation τ sig (Elt Ideal)) :
    after hostOps0_1 Wp (Proc.devRef .tc main_v14)
      = select (Wp (Proc.devRef .tc main_v12) : IVec Cert.ReferenceIdeal.S100000 1) (Wp (Proc.devRef .tc main_v13) : FVec Ideal Cert.ReferenceIdeal.S100000 .f32)
          (broadcastInDim Cert.ReferenceIdeal.S100000 ![] Cert.ReferenceIdeal.Gen.bcast_S_S100000 (id (Wp (Proc.devRef .tc main_cst_2) : FVec Ideal Cert.ReferenceIdeal.S_ .f32))) := by
  after_results_simp <;> rfl

set_option maxHeartbeats 8000000 in
/-- The third stretch makes the edges' weights from the sources, the targets and the nodes' scales. -/
theorem weights (Wp : Valuation τ sig (Elt Ideal)) :
    after hostOps0_2 Wp (Proc.devRef .tc main_v29)
      = Cert.Net.weightOf (Wp (Proc.devRef .tc main_v5)) (Wp (Proc.devRef .tc main_v6)) (Wp (Proc.devRef .tc main_v14)) := by
  after_results_simp <;> rfl

theorem W1_srcs (c : Dev nD) : W1 m ρ c (Proc.devRef .tc main_v5) = Cert.Net.srcs (m ((c : Thread nD τ).loc main_arg1)) := by
  rw [W1_eq, rest_srcs, edges_srcs]
theorem W1_dsts (c : Dev nD) : W1 m ρ c (Proc.devRef .tc main_v6) = Cert.Net.dsts (m ((c : Thread nD τ).loc main_arg1)) := by
  rw [W1_eq, rest_dsts, edges_dsts]

theorem W2_srcs (c : Dev nD) : W2 m ρ c (Proc.devRef .tc main_v5) = Cert.Net.srcs (m ((c : Thread nD τ).loc main_arg1)) :=
  (show W2 m ρ c (Proc.devRef .tc main_v5) = W1 m ρ c (Proc.devRef .tc main_v5) from by host_keeps hostOps0_1).trans (W1_srcs m ρ c)
theorem W2_dsts (c : Dev nD) : W2 m ρ c (Proc.devRef .tc main_v6) = Cert.Net.dsts (m ((c : Thread nD τ).loc main_arg1)) :=
  (show W2 m ρ c (Proc.devRef .tc main_v6) = W1 m ρ c (Proc.devRef .tc main_v6) from by host_keeps hostOps0_1).trans (W1_dsts m ρ c)

/-- The nodes' scales. -/
theorem W2_scale (c : Dev nD) : W2 m ρ c (Proc.devRef .tc main_v14) = Cert.Net.scaleOf (Cert.Net.dsts (m ((c : Thread nD τ).loc main_arg1))) := by
  show after hostOps0_1 (W1 m ρ c) (Proc.devRef .tc main_v14) = _
  rw [where_scale, W1_eq, rest_pos, rest_rsqrt, rest_zero, edges_dsts]
  rfl

/-- The edges' sources. -/
theorem W3_srcs (c : Dev nD) : W3 m ρ c (Proc.devRef .tc main_v5) = Cert.Net.srcs (m ((c : Thread nD τ).loc main_arg1)) :=
  (show W3 m ρ c (Proc.devRef .tc main_v5) = W2 m ρ c (Proc.devRef .tc main_v5) from by host_keeps hostOps0_2).trans (W2_srcs m ρ c)

/-- The edges' targets. -/
theorem W3_dsts (c : Dev nD) : W3 m ρ c (Proc.devRef .tc main_v6) = Cert.Net.dsts (m ((c : Thread nD τ).loc main_arg1)) :=
  (show W3 m ρ c (Proc.devRef .tc main_v6) = W2 m ρ c (Proc.devRef .tc main_v6) from by host_keeps hostOps0_2).trans (W2_dsts m ρ c)

/-- The edges' weights. -/
theorem W3_norm (c : Dev nD) : W3 m ρ c (Proc.devRef .tc main_v29) = Cert.Net.norm (m ((c : Thread nD τ).loc main_arg1)) := by
  show after hostOps0_2 (W2 m ρ c) (Proc.devRef .tc main_v29) = _
  rw [weights, W2_srcs, W2_dsts, W2_scale]
  rfl

/-! ## What each later stretch prepares, from any contents -/

set_option maxHeartbeats 8000000 in
theorem stretch1_agg (Wp : Valuation τ sig (Elt Ideal)) :
    after hostOps1 Wp (Proc.devRef .tc main_v43)
      = Cert.Net.aggOf (Wp (Proc.devRef .tc main_v5)) (Wp (Proc.devRef .tc main_v6)) (Wp (Proc.devRef .tc main_v29)) (Wp (Proc.devRef .tc main_v30)) := by
  after_results_simp <;> rfl

set_option maxHeartbeats 8000000 in
theorem stretch1_row (Wp : Valuation τ sig (Elt Ideal)) :
    after hostOps1 Wp (Proc.devRef .tc main_v44) = shapeCast S1x64 (Wp (Proc.devRef .tc main_arg3)) shapeCasts_S64_S1x64 := by
  after_results_simp <;> rfl

set_option maxHeartbeats 8000000 in
theorem stretch2_agg (Wp : Valuation τ sig (Elt Ideal)) :
    after hostOps2 Wp (Proc.devRef .tc main_v58)
      = Cert.Net.aggOf (Wp (Proc.devRef .tc main_v5)) (Wp (Proc.devRef .tc main_v6)) (Wp (Proc.devRef .tc main_v29)) (Wp (Proc.devRef .tc main_v45)) := by
  after_results_simp <;> rfl

set_option maxHeartbeats 8000000 in
theorem stretch2_row (Wp : Valuation τ sig (Elt Ideal)) :
    after hostOps2 Wp (Proc.devRef .tc main_v59) = shapeCast S1x64 (Wp (Proc.devRef .tc main_arg5)) shapeCasts_S64_S1x64 := by
  after_results_simp <;> rfl

set_option maxHeartbeats 8000000 in
theorem stretch3_agg (Wp : Valuation τ sig (Elt Ideal)) :
    after hostOps3 Wp (Proc.devRef .tc main_v73)
      = Cert.Net.aggOf (Wp (Proc.devRef .tc main_v5)) (Wp (Proc.devRef .tc main_v6)) (Wp (Proc.devRef .tc main_v29)) (Wp (Proc.devRef .tc main_v60)) := by
  after_results_simp <;> rfl

set_option maxHeartbeats 8000000 in
theorem stretch3_row7 (Wp : Valuation τ sig (Elt Ideal)) :
    after hostOps3 Wp (Proc.devRef .tc main_v74) = shapeCast S1x64 (Wp (Proc.devRef .tc main_arg7)) shapeCasts_S64_S1x64 := by
  after_results_simp <;> rfl

set_option maxHeartbeats 8000000 in
theorem stretch3_row9 (Wp : Valuation τ sig (Elt Ideal)) :
    after hostOps3 Wp (Proc.devRef .tc main_v75) = shapeCast S1x64 (Wp (Proc.devRef .tc main_arg9)) shapeCasts_S64_S1x64 := by
  after_results_simp <;> rfl

set_option maxHeartbeats 8000000 in
theorem stretch3_row11 (Wp : Valuation τ sig (Elt Ideal)) :
    after hostOps3 Wp (Proc.devRef .tc main_v76) = shapeCast S1x3 (Wp (Proc.devRef .tc main_arg11)) shapeCasts_S3_S1x3 := by
  after_results_simp <;> rfl

/-- A bias vector reshaped into a row is the row the network is stated with. -/
theorem row_eq (b : FVec Ideal S64 .f32) : shapeCast S1x64 b shapeCasts_S64_S1x64 = Cert.Net.row b :=
  Cert.LibColumnRow.shapeCast_row_eq_broadcastInDim b _ _
theorem row3_eq (b : FVec Ideal S3 .f32) : shapeCast S1x3 b shapeCasts_S3_S1x3 = Cert.Net.row3 b :=
  Cert.LibColumnRow.shapeCast_row_eq_broadcastInDim b _ _

/-! ## The buffers at the boundaries -/

/-- After the first region: the outer product. -/
theorem W4_h (c : Dev nD) : W4 m ρ c (Proc.devRef .tc main_v30) = Cert.Net.outer (m ((c : Thread nD τ).loc main_arg0)) (m ((c : Thread nD τ).loc main_arg2)) :=
  (W4_arr m ρ c 2).trans ((Cert.KernelIdeal.Stage0.final (V3 m ρ) c).trans
    (congrArg₂ Cert.KernelIdeal.Stage0.outer (Cert.KernelIdeal.Kept.W3_main_arg0 m ρ c) (Cert.KernelIdeal.Kept.W3_main_arg2 m ρ c)))

/-- The first aggregation. -/
theorem W5_agg (c : Dev nD) :
    W5 m ρ c (Proc.devRef .tc main_v43) = Cert.Net.agg (m ((c : Thread nD τ).loc main_arg1)) (Cert.Net.outer (m ((c : Thread nD τ).loc main_arg0)) (m ((c : Thread nD τ).loc main_arg2))) := by
  refine (stretch1_agg (W4 m ρ c)).trans ?_
  rw [(Cert.KernelIdeal.Kept.W4_main_v5_W3 m ρ c).trans (W3_srcs m ρ c), (Cert.KernelIdeal.Kept.W4_main_v6_W3 m ρ c).trans (W3_dsts m ρ c),
    (Cert.KernelIdeal.Kept.W4_main_v29_W3 m ρ c).trans (W3_norm m ρ c), W4_h m ρ c]
  rfl

theorem W5_row (c : Dev nD) : W5 m ρ c (Proc.devRef .tc main_v44) = Cert.Net.row (m ((c : Thread nD τ).loc main_arg3)) := by
  refine (stretch1_row (W4 m ρ c)).trans ?_
  rw [Cert.KernelIdeal.Kept.W4_main_arg3 m ρ c]
  exact row_eq _

/-- After the second region: the first dense stage. -/
theorem W6_h (c : Dev nD) :
    W6 m ρ c (Proc.devRef .tc main_v45)
      = Cert.LibDenseStage.layer (Cert.Net.agg (m ((c : Thread nD τ).loc main_arg1)) (Cert.Net.outer (m ((c : Thread nD τ).loc main_arg0)) (m ((c : Thread nD τ).loc main_arg2)))) (Cert.Net.row (m ((c : Thread nD τ).loc main_arg3))) (m ((c : Thread nD τ).loc main_arg4)) := by
  refine (W6_arr m ρ c 3).trans ((Cert.KernelIdeal.Stage1.final (V5 m ρ) c).trans ?_)
  show Cert.LibDenseStage.layer (W5 m ρ c (Proc.devRef .tc main_v43)) (W5 m ρ c (Proc.devRef .tc main_v44)) (W5 m ρ c (Proc.devRef .tc main_arg4)) = _
  rw [W5_agg m ρ c, W5_row m ρ c, Cert.KernelIdeal.Kept.W5_main_arg4 m ρ c]

/-- The second aggregation. -/
theorem W7_agg (c : Dev nD) :
    W7 m ρ c (Proc.devRef .tc main_v58)
      = Cert.Net.agg (m ((c : Thread nD τ).loc main_arg1)) (Cert.LibDenseStage.layer (Cert.Net.agg (m ((c : Thread nD τ).loc main_arg1)) (Cert.Net.outer (m ((c : Thread nD τ).loc main_arg0)) (m ((c : Thread nD τ).loc main_arg2)))) (Cert.Net.row (m ((c : Thread nD τ).loc main_arg3))) (m ((c : Thread nD τ).loc main_arg4))) := by
  refine (stretch2_agg (W6 m ρ c)).trans ?_
  rw [(Cert.KernelIdeal.Kept.W6_main_v5_W3 m ρ c).trans (W3_srcs m ρ c), (Cert.KernelIdeal.Kept.W6_main_v6_W3 m ρ c).trans (W3_dsts m ρ c),
    (Cert.KernelIdeal.Kept.W6_main_v29_W3 m ρ c).trans (W3_norm m ρ c), W6_h m ρ c]
  rfl

theorem W7_row (c : Dev nD) : W7 m ρ c (Proc.devRef .tc main_v59) = Cert.Net.row (m ((c : Thread nD τ).loc main_arg5)) := by
  refine (stretch2_row (W6 m ρ c)).trans ?_
  rw [Cert.KernelIdeal.Kept.W6_main_arg5 m ρ c]
  exact row_eq _

/-- After the third region: the second dense stage. -/
theorem W8_h (c : Dev nD) :
    W8 m ρ c (Proc.devRef .tc main_v60)
      = Cert.LibDenseStage.layer (Cert.Net.agg (m ((c : Thread nD τ).loc main_arg1)) (Cert.LibDenseStage.layer (Cert.Net.agg (m ((c : Thread nD τ).loc main_arg1)) (Cert.Net.outer (m ((c : Thread nD τ).loc main_arg0)) (m ((c : Thread nD τ).loc main_arg2)))) (Cert.Net.row (m ((c : Thread nD τ).loc main_arg3))) (m ((c : Thread nD τ).loc main_arg4)))) (Cert.Net.row (m ((c : Thread nD τ).loc main_arg5))) (m ((c : Thread nD τ).loc main_arg6)) := by
  refine (W8_arr m ρ c 3).trans ((Cert.KernelIdeal.Stage2.final (V7 m ρ) c).trans ?_)
  show Cert.LibDenseStage.layer (W7 m ρ c (Proc.devRef .tc main_v58)) (W7 m ρ c (Proc.devRef .tc main_v59)) (W7 m ρ c (Proc.devRef .tc main_arg6)) = _
  rw [W7_agg m ρ c, W7_row m ρ c, Cert.KernelIdeal.Kept.W7_main_arg6 m ρ c]

/-- The third aggregation. -/
theorem W9_agg (c : Dev nD) :
    W9 m ρ c (Proc.devRef .tc main_v73)
      = Cert.Net.agg (m ((c : Thread nD τ).loc main_arg1)) (Cert.LibDenseStage.layer (Cert.Net.agg (m ((c : Thread nD τ).loc main_arg1)) (Cert.LibDenseStage.layer (Cert.Net.agg (m ((c : Thread nD τ).loc main_arg1)) (Cert.Net.outer (m ((c : Thread nD τ).loc main_arg0)) (m ((c : Thread nD τ).loc main_arg2)))) (Cert.Net.row (m ((c : Thread nD τ).loc main_arg3))) (m ((c : Thread nD τ).loc main_arg4)))) (Cert.Net.row (m ((c : Thread nD τ).loc main_arg5))) (m ((c : Thread nD τ).loc main_arg6))) := by
  refine (stretch3_agg (W8 m ρ c)).trans ?_
  rw [(Cert.KernelIdeal.Kept.W8_main_v5_W3 m ρ c).trans (W3_srcs m ρ c), (Cert.KernelIdeal.Kept.W8_main_v6_W3 m ρ c).trans (W3_dsts m ρ c),
    (Cert.KernelIdeal.Kept.W8_main_v29_W3 m ρ c).trans (W3_norm m ρ c), W8_h m ρ c]
  rfl

theorem W9_row7 (c : Dev nD) : W9 m ρ c (Proc.devRef .tc main_v74) = Cert.Net.row (m ((c : Thread nD τ).loc main_arg7)) := by
  refine (stretch3_row7 (W8 m ρ c)).trans ?_
  rw [Cert.KernelIdeal.Kept.W8_main_arg7 m ρ c]
  exact row_eq _

theorem W9_row9 (c : Dev nD) : W9 m ρ c (Proc.devRef .tc main_v75) = Cert.Net.row (m ((c : Thread nD τ).loc main_arg9)) := by
  refine (stretch3_row9 (W8 m ρ c)).trans ?_
  rw [Cert.KernelIdeal.Kept.W8_main_arg9 m ρ c]
  exact row_eq _

theorem W9_row11 (c : Dev nD) : W9 m ρ c (Proc.devRef .tc main_v76) = Cert.Net.row3 (m ((c : Thread nD τ).loc main_arg11)) := by
  refine (stretch3_row11 (W8 m ρ c)).trans ?_
  rw [Cert.KernelIdeal.Kept.W8_main_arg11 m ρ c]
  exact row3_eq _

/-- THE RESULT BUFFER at the return: the network of the argument arrays as launched. -/
theorem result (c : Dev nD) :
    W10 m ρ c (Proc.devRef .tc main_v77)
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 6).trans ((Cert.KernelIdeal.Stage3.final (V9 m ρ) c).trans ?_)
  show Cert.KernelIdeal.Stage3.tail (W9 m ρ c (Proc.devRef .tc main_v73)) (W9 m ρ c (Proc.devRef .tc main_v74)) (W9 m ρ c (Proc.devRef .tc main_arg8))
    (W9 m ρ c (Proc.devRef .tc main_v75)) (W9 m ρ c (Proc.devRef .tc main_arg10)) (W9 m ρ c (Proc.devRef .tc main_v76)) = _
  rw [W9_agg m ρ c, W9_row7 m ρ c, W9_row9 m ρ c, W9_row11 m ρ c, Cert.KernelIdeal.Kept.W9_main_arg8 m ρ c, Cert.KernelIdeal.Kept.W9_main_arg10 m ρ c]
  rfl

end Cert.KernelIdeal.Value

end
-- ==== Proof.RefValue.lean ====
/-
  The reference program's result as the network of its argument arrays.

  The reference's run ends with its result buffer at the composed term of its two hundred host operations. That
  term is the network as the host states it: the graph side recomputed before each of the three aggregations, each
  dense stage a dot_general of a rectified sum; and the host's dense stages are the index-by-index ones.
-/
import proofs.«111814_j16303695855961_1_alg».proof.Proof.RefRun
import proofs.«111814_j16303695855961_1_alg».proof.Proof.Net

noncomputable section

namespace Cert.ReferenceIdeal.RefValue

open Idealize.ShloMosaic Idealize.ShloMosaic.TcCoe Idealize.SL.Sem
open Cert.ReferenceIdeal Cert.ReferenceIdeal.Gen

set_option maxRecDepth 65536 in
set_option maxHeartbeats 16000000 in
/-- The composed term is the network as the host states it: its definitions unfold to the same operations. -/
theorem result_host (m : (ℓ : Loc nD τ sig) → Buf (Elt Ideal) ℓ) (c : Dev nD) :
    Cert.ReferenceIdeal.RunP.res_main_v152 (F := Ideal) m c
      = Cert.Net.hostNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Cert.ReferenceIdeal.RunP.res_main_v152
  rfl

/-- THE RESULT BUFFER at the return: the network of the argument arrays as launched. -/
theorem result (m : (ℓ : Loc nD τ sig) → Buf (Elt Ideal) ℓ) (c : Dev nD) :
    Cert.ReferenceIdeal.RunP.res_main_v152 (F := Ideal) m c
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (result_host m c).trans (Cert.Net.hostNet_eq _ _ _ _ _ _ _ _ _ _ _ _)

end Cert.ReferenceIdeal.RefValue

end
-- ==== Proof.lean ====
/-
  The certificate: a three-layer graph convolution network with a two-layer head, as a Pallas program of four
  TensorCore regions among host gathers and scatter-adds, against its jnp reference.

  On the extended reals both programs compute one function of the argument arrays (Proof/Net.lean): the edge list
  gives the edges' sources, targets and symmetric-normalisation weights; the network is the outer product x · W1,
  three aggregations over the graph each followed by a dense stage (bias row, rectifier, product by the next
  weight), a second dense stage after the last one and a final bias row. The programs differ in where the dense
  stages run (on the TensorCore, in blocks of 10000 rows, with the matrix unit's narrower input format — the
  identity on the extended reals — against the host's dot_general), in how a bias vector becomes a row (a reshape
  against a broadcast) and in how often the graph side is computed (once against three times). None of this needs
  the inputs finite: no algebraic law is used beyond reading a matrix product as a sum.

  The frames of the two kernel programs are the generated ones; the reference's frame is its run with the result
  dropped; no operation was rewritten by the ideal pass, so nothing is to preserve.
-/
import proofs.«111814_j16303695855961_1_alg».proof.Defs
import proofs.«111814_j16303695855961_1_alg».proof.Proof.Gen.Kernel
import proofs.«111814_j16303695855961_1_alg».proof.Proof.Gen.Kernel.Skeleton
import proofs.«111814_j16303695855961_1_alg».proof.Proof.Gen.Kernel.Launch
import proofs.«111814_j16303695855961_1_alg».proof.Proof.Gen.Kernel.Points
import proofs.«111814_j16303695855961_1_alg».proof.Proof.Gen.Kernel.Frame
import proofs.«111814_j16303695855961_1_alg».proof.Proof.Gen.KernelIdeal
import proofs.«111814_j16303695855961_1_alg».proof.Proof.Gen.KernelIdeal.Skeleton
import proofs.«111814_j16303695855961_1_alg».proof.Proof.Gen.KernelIdeal.Launch
import proofs.«111814_j16303695855961_1_alg».proof.Proof.Gen.KernelIdeal.Points
import proofs.«111814_j16303695855961_1_alg».proof.Proof.Gen.KernelIdeal.Frame
import proofs.«111814_j16303695855961_1_alg».proof.Proof.Gen.ReferenceIdeal
import proofs.«111814_j16303695855961_1_alg».proof.Proof.Gen.Pre_finite_inputs
import proofs.«111814_j16303695855961_1_alg».proof.Proof.KernelRun
import proofs.«111814_j16303695855961_1_alg».proof.Proof.Value
import proofs.«111814_j16303695855961_1_alg».proof.Proof.RefRun
import proofs.«111814_j16303695855961_1_alg».proof.Proof.RefValue
import Idealize.ShloMosaic.Adequacy
import Idealize.ShloMosaic.Init

noncomputable section

namespace Cert.Proof

open Idealize.ShloMosaic Idealize.SL.Sem

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the network of those arguments in their result
    buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Value.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.RunP.run (F := Ideal) m' ρ')
    obtain ⟨h0, h1, h2, h3, h4, h5, h6, h7, h8, h9, h10, h11⟩ := hagree c
    rw [Cert.ReferenceIdeal.RefValue.result m' c, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
